-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x1 : Shape := ⟨2, ![8388608, 1]⟩
abbrev S_ : Shape := ⟨0, ![]⟩

class Facts : Prop where
  bcast_S_S8388608x1 : S_.BroadcastsInDim S8388608x1 (![] : Fin 0 → Fin S8388608x1.rank)
  reducesTo_S8388608x1_S_d0_1 : S8388608x1.ReducesTo [0, 1] S_
  h_S_ : 0 < S_.numel
  reducesTo_S_S_d : S_.ReducesTo [] S_

variable [Facts]

def fn_part1 {F : FTy → Type} [FloatOps F] (main_arg4 : FVec F S_ .f32) (main_v13 : IVec S_ 1) (main_v16 : IVec S8388608x1 1) : IVec S_ 1 :=
  let main_c_5 : IVec S_ 1 := constantI S_ 1 1#1
  let main_v17 : IVec S_ 1 := (fun x v => Host.reduce IntOp.andi x v reducesTo_S8388608x1_S_d0_1 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S8388608x1 .f32) (main_arg1 : FVec F S8388608x1 .f32) (main_arg2 : FVec F S8388608x1 .f32) (main_arg3 : FVec F S8388608x1 .f32) (main_arg4 : FVec F S_ .f32) : IVec S_ 1 :=
  let main_v0 : FVec F S8388608x1 .f32 := Host.absf main_arg0
  let main_cst : FVec F S_ .f32 := constant S_ .f32 0x7F800000#32
  let main_v1 : FVec F S8388608x1 .f32 := broadcastInDim S8388608x1 ![] bcast_S_S8388608x1 main_cst
  let main_v2 : IVec S8388608x1 1 := cmpf .olt main_v0 main_v1
  let main_c : IVec S_ 1 := constantI S_ 1 1#1
  let main_v3 : IVec S_ 1 := (fun x v => Host.reduce IntOp.andi x v reducesTo_S8388608x1_S_d0_1 h_S_) main_v2 main_c
  let main_v4 : FVec F S8388608x1 .f32 := Host.absf main_arg1
  let main_cst_0 : FVec F S_ .f32 := constant S_ .f32 0x7F800000#32
  let main_v5 : FVec F S8388608x1 .f32 := broadcastInDim S8388608x1 ![] bcast_S_S8388608x1 main_cst_0
  let main_v6 : IVec S8388608x1 1 := cmpf .olt main_v4 main_v5
  let main_c_1 : IVec S_ 1 := constantI S_ 1 1#1
  let main_v7 : IVec S_ 1 := (fun x v => Host.reduce IntOp.andi x v reducesTo_S8388608x1_S_d0_1 h_S_) main_v6 main_c_1
  let main_v8 : IVec S_ 1 := andi main_v3 main_v7
  let main_v9 : FVec F S8388608x1 .f32 := Host.absf main_arg2
  let main_cst_2 : FVec F S_ .f32 := constant S_ .f32 0x7F800000#32
  let main_v10 : FVec F S8388608x1 .f32 := broadcastInDim S8388608x1 ![] bcast_S_S8388608x1 main_cst_2
  let main_v11 : IVec S8388608x1 1 := cmpf .olt main_v9 main_v10
  let main_c_3 : IVec S_ 1 := constantI S_ 1 1#1
  let main_v12 : IVec S_ 1 := (fun x v => Host.reduce IntOp.andi x v reducesTo_S8388608x1_S_d0_1 h_S_) main_v11 main_c_3
  let main_v13 : IVec S_ 1 := andi main_v8 main_v12
  let main_v14 : FVec F S8388608x1 .f32 := Host.absf main_arg3
  let main_cst_4 : FVec F S_ .f32 := constant S_ .f32 0x7F800000#32
  let main_v15 : FVec F S8388608x1 .f32 := broadcastInDim S8388608x1 ![] bcast_S_S8388608x1 main_cst_4
  let main_v16 : IVec S8388608x1 1 := cmpf .olt main_v14 main_v15
  fn_part1 (F := F) main_arg4 main_v13 main_v16
-- ==== Kernel.lean ====
abbrev S8388608x1 : Shape := ⟨2, ![8388608, 1]⟩
abbrev S_ : Shape := ⟨0, ![]⟩
abbrev S65536x128 : Shape := ⟨2, ![65536, 128]⟩
abbrev S1x1 : Shape := ⟨2, ![1, 1]⟩
abbrev S8192x128 : Shape := ⟨2, ![8192, 128]⟩
abbrev S1x8192x128 : Shape := ⟨3, ![1, 8192, 128]⟩
abbrev S1 : Shape := ⟨1, ![1]⟩
abbrev S1x1x1 : Shape := ⟨3, ![1, 1, 1]⟩

abbrev nBuf : Space → Nat
  | .hbm => 14
  | .vmem => 7
  | .smem => 0
  | _ => 0

abbrev bufTy : (tb : Table) → Fin (tcTables nBuf tb) → BufTy
  | .hbm, ⟨0, _⟩ => ⟨S8388608x1, .f32⟩
  | .hbm, ⟨1, _⟩ => ⟨S8388608x1, .f32⟩
  | .hbm, ⟨2, _⟩ => ⟨S8388608x1, .f32⟩
  | .hbm, ⟨3, _⟩ => ⟨S8388608x1, .f32⟩
  | .hbm, ⟨4, _⟩ => ⟨S_, .f32⟩
  | .hbm, ⟨5, _⟩ => ⟨S65536x128, .f32⟩
  | .hbm, ⟨6, _⟩ => ⟨S65536x128, .f32⟩
  | .hbm, ⟨7, _⟩ => ⟨S65536x128, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x1, .f32⟩
  | _, _ => ⟨S8388608x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S8388608x1_S65536x128 : S8388608x1.ShapeCasts S65536x128
  inb_S1x1_S1x1_0_0 : ∀ a, (![0, 0] : Fin 2 → Nat) a + S1x1.size a ≤ S1x1.size a
  h_S1x1 : 0 < S1x1.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S65536x128.size a
  hwx0_1 : ∀ i : grid0.Coords, EltTy.bits .f32 = 32 ∨ (Rect.block (s := S65536x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x1 : Shape := ⟨2, ![8388608, 1]⟩
abbrev S_ : Shape := ⟨0, ![]⟩

abbrev nBuf : Space → Nat
  | .hbm => 128
  | .vmem => 0
  | .smem => 0
  | _ => 0

abbrev bufTy : (tb : Table) → Fin (tcTables nBuf tb) → BufTy
  | .hbm, ⟨0, _⟩ => ⟨S8388608x1, .f32⟩
  | .hbm, ⟨1, _⟩ => ⟨S8388608x1, .f32⟩
  | .hbm, ⟨2, _⟩ => ⟨S8388608x1, .f32⟩
  | .hbm, ⟨3, _⟩ => ⟨S8388608x1, .f32⟩
  | .hbm, ⟨4, _⟩ => ⟨S_, .f32⟩
  | .hbm, ⟨5, _⟩ => ⟨S_, .f32⟩
  | .hbm, ⟨6, _⟩ => ⟨S8388608x1, .f32⟩
  | .hbm, ⟨7, _⟩ => ⟨S8388608x1, .f32⟩
  | .hbm, ⟨8, _⟩ => ⟨S_, .f32⟩
  | .hbm, ⟨9, _⟩ => ⟨S8388608x1, .f32⟩
  | .hbm, ⟨10, _⟩ => ⟨S8388608x1, .f32⟩
  | .hbm, ⟨11, _⟩ => ⟨S_, .f32⟩
  | .hbm, ⟨12, _⟩ => ⟨S8388608x1, .f32⟩
  | .hbm, ⟨13, _⟩ => ⟨S8388608x1, .f32⟩
  | .hbm, ⟨14, _⟩ => ⟨S_, .f32⟩
  | .hbm, ⟨15, _⟩ => ⟨S8388608x1, .f32⟩
  | .hbm, ⟨16, _⟩ => ⟨S8388608x1, .f32⟩
  | .hbm, ⟨17, _⟩ => ⟨S8388608x1, .f32⟩
  | .hbm, ⟨18, _⟩ => ⟨S_, .f32⟩
  | .hbm, ⟨19, _⟩ => ⟨S8388608x1, .f32⟩
  | .hbm, ⟨20, _⟩ => ⟨S8388608x1, .f32⟩
  | .hbm, ⟨21, _⟩ => ⟨S_, .f32⟩
  | .hbm, ⟨22, _⟩ => ⟨S8388608x1, .f32⟩
  | .hbm, ⟨23, _⟩ => ⟨S8388608x1, .f32⟩
  | .hbm, ⟨24, _⟩ => ⟨S8388608x1, .f32⟩
  | .hbm, ⟨25, _⟩ => ⟨S8388608x1, .f32⟩
  | .hbm, ⟨26, _⟩ => ⟨S_, .f32⟩
  | .hbm, ⟨27, _⟩ => ⟨S8388608x1, .f32⟩
  | .hbm, ⟨28, _⟩ => ⟨S8388608x1, .f32⟩
  | .hbm, ⟨29, _⟩ => ⟨S8388608x1, .f32⟩
  | .hbm, ⟨30, _⟩ => ⟨S_, .f32⟩
  | .hbm, ⟨31, _⟩ => ⟨S8388608x1, .f32⟩
  | .hbm, ⟨32, _⟩ => ⟨S8388608x1, .i1⟩
  | .hbm, ⟨33, _⟩ => ⟨S_, .f32⟩
  | .hbm, ⟨34, _⟩ => ⟨S8388608x1, .f32⟩
  | .hbm, ⟨35, _⟩ => ⟨S8388608x1, .i1⟩
  | .hbm, ⟨36, _⟩ => ⟨S8388608x1, .i1⟩
  | .hbm, ⟨37, _⟩ => ⟨S_, .f32⟩
  | .hbm, ⟨38, _⟩ => ⟨S8388608x1, .f32⟩
  | .hbm, ⟨39, _⟩ => ⟨S8388608x1, .i1⟩
  | .hbm, ⟨40, _⟩ => ⟨S_, .f32⟩
  | .hbm, ⟨41, _⟩ => ⟨S8388608x1, .f32⟩
  | .hbm, ⟨42, _⟩ => ⟨S8388608x1, .i1⟩
  | .hbm, ⟨43, _⟩ => ⟨S_, .f32⟩
  | .hbm, ⟨44, _⟩ => ⟨S_, .f32⟩
  | .hbm, ⟨45, _⟩ => ⟨S8388608x1, .f32⟩
  | .hbm, ⟨46, _⟩ => ⟨S8388608x1, .f32⟩
  | .hbm, ⟨47, _⟩ => ⟨S_, .f32⟩
  | .hbm, ⟨48, _⟩ => ⟨S_, .f32⟩
  | .hbm, ⟨49, _⟩ => ⟨S8388608x1, .f32⟩
  | .hbm, ⟨50, _⟩ => ⟨S8388608x1, .f32⟩
  | .hbm, ⟨51, _⟩ => ⟨S_, .f32⟩
  | .hbm, ⟨52, _⟩ => ⟨S8388608x1, .f32⟩
  | .hbm, ⟨53, _⟩ => ⟨S8388608x1, .f32⟩
  | .hbm, ⟨54, _⟩ => ⟨S_, .f32⟩
  | .hbm, ⟨55, _⟩ => ⟨S8388608x1, .f32⟩
  | .hbm, ⟨56, _⟩ => ⟨S8388608x1, .f32⟩
  | .hbm, ⟨57, _⟩ => ⟨S_, .f32⟩
  | .hbm, ⟨58, _⟩ => ⟨S8388608x1, .f32⟩
  | .hbm, ⟨59, _⟩ => ⟨S8388608x1, .f32⟩
  | .hbm, ⟨60, _⟩ => ⟨S8388608x1, .f32⟩
  | .hbm, ⟨61, _⟩ => ⟨S_, .f32⟩
  | .hbm, ⟨62, _⟩ => ⟨S8388608x1, .f32⟩
  | .hbm, ⟨63, _⟩ => ⟨S8388608x1, .f32⟩
  | .hbm, ⟨64, _⟩ => ⟨S_, .f32⟩
  | .hbm, ⟨65, _⟩ => ⟨S_, .f32⟩
  | .hbm, ⟨66, _⟩ => ⟨S8388608x1, .f32⟩
  | .hbm, ⟨67, _⟩ => ⟨S8388608x1, .f32⟩
  | .hbm, ⟨68, _⟩ => ⟨S_, .f32⟩
  | .hbm, ⟨69, _⟩ => ⟨S8388608x1, .f32⟩
  | .hbm, ⟨70, _⟩ => ⟨S8388608x1, .f32⟩
  | .hbm, ⟨71, _⟩ => ⟨S_, .f32⟩
  | .hbm, ⟨72, _⟩ => ⟨S8388608x1, .f32⟩
  | .hbm, ⟨73, _⟩ => ⟨S8388608x1, .f32⟩
  | .hbm, ⟨74, _⟩ => ⟨S_, .f32⟩
  | .hbm, ⟨75, _⟩ => ⟨S8388608x1, .f32⟩
  | .hbm, ⟨76, _⟩ => ⟨S8388608x1, .f32⟩
  | .hbm, ⟨77, _⟩ => ⟨S8388608x1, .f32⟩
  | .hbm, ⟨78, _⟩ => ⟨S_, .f32⟩
  | .hbm, ⟨79, _⟩ => ⟨S8388608x1, .f32⟩
  | .hbm, ⟨80, _⟩ => ⟨S8388608x1, .f32⟩
  | .hbm, ⟨81, _⟩ => ⟨S_, .f32⟩
  | .hbm, ⟨82, _⟩ => ⟨S8388608x1, .f32⟩
  | .hbm, ⟨83, _⟩ => ⟨S8388608x1, .f32⟩
  | .hbm, ⟨84, _⟩ => ⟨S8388608x1, .f32⟩
  | .hbm, ⟨85, _⟩ => ⟨S8388608x1, .f32⟩
  | .hbm, ⟨86, _⟩ => ⟨S8388608x1, .f32⟩
  | .hbm, ⟨87, _⟩ => ⟨S_, .f32⟩
  | .hbm, ⟨88, _⟩ => ⟨S8388608x1, .f32⟩
  | .hbm, ⟨89, _⟩ => ⟨S8388608x1, .f32⟩
  | .hbm, ⟨90, _⟩ => ⟨S8388608x1, .f32⟩
  | .hbm, ⟨91, _⟩ => ⟨S_, .f32⟩
  | .hbm, ⟨92, _⟩ => ⟨S8388608x1, .f32⟩
  | .hbm, ⟨93, _⟩ => ⟨S8388608x1, .f32⟩
  | .hbm, ⟨94, _⟩ => ⟨S8388608x1, .f32⟩
  | .hbm, ⟨95, _⟩ => ⟨S_, .f32⟩
  | .hbm, ⟨96, _⟩ => ⟨S8388608x1, .f32⟩
  | .hbm, ⟨97, _⟩ => ⟨S8388608x1, .f32⟩
  | .hbm, ⟨98, _⟩ => ⟨S_, .f32⟩
  | .hbm, ⟨99, _⟩ => ⟨S8388608x1, .f32⟩
  | .hbm, ⟨100, _⟩ => ⟨S8388608x1, .f32⟩
  | .hbm, ⟨101, _⟩ => ⟨S8388608x1, .f32⟩
  | .hbm, ⟨102, _⟩ => ⟨S8388608x1, .f32⟩
  | .hbm, ⟨103, _⟩ => ⟨S_, .f32⟩
  | .hbm, ⟨104, _⟩ => ⟨S8388608x1, .f32⟩
  | .hbm, ⟨105, _⟩ => ⟨S8388608x1, .f32⟩
  | .hbm, ⟨106, _⟩ => ⟨S8388608x1, .f32⟩
  | .hbm, ⟨107, _⟩ => ⟨S8388608x1, .f32⟩
  | .hbm, ⟨108, _⟩ => ⟨S_, .f32⟩
  | .hbm, ⟨109, _⟩ => ⟨S8388608x1, .f32⟩
  | .hbm, ⟨110, _⟩ => ⟨S8388608x1, .f32⟩
  | .hbm, ⟨111, _⟩ => ⟨S8388608x1, .f32⟩
  | .hbm, ⟨112, _⟩ => ⟨S8388608x1, .f32⟩
  | .hbm, ⟨113, _⟩ => ⟨S8388608x1, .f32⟩
  | .hbm, ⟨114, _⟩ => ⟨S_, .f32⟩
  | .hbm, ⟨115, _⟩ => ⟨S8388608x1, .f32⟩
  | .hbm, ⟨116, _⟩ => ⟨S8388608x1, .i1⟩
  | .hbm, ⟨117, _⟩ => ⟨S8388608x1, .f32⟩
  | .hbm, ⟨118, _⟩ => ⟨S_, .f32⟩
  | .hbm, ⟨119, _⟩ => ⟨S_, .f32⟩
  | .hbm, ⟨120, _⟩ => ⟨S8388608x1, .f32⟩
  | .hbm, ⟨121, _⟩ => ⟨S8388608x1, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S8388608x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_cst_10 : Ref sig .tc := ⟨.hbm, 43, rfl⟩
abbrev main_call0_v0 : Ref sig .tc := ⟨.hbm, 44, rfl⟩
abbrev main_call0_v1 : Ref sig .tc := ⟨.hbm, 45, rfl⟩
abbrev main_v27 : Ref sig .tc := ⟨.hbm, 46, rfl⟩
abbrev main_cst_11 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_cst_12 : Ref sig .tc := ⟨.hbm, 51, rfl⟩
abbrev main_v29 : Ref sig .tc := ⟨.hbm, 52, rfl⟩
abbrev main_v30 : Ref sig .tc := ⟨.hbm, 53, rfl⟩
abbrev main_cst_13 : Ref sig .tc := ⟨.hbm, 54, rfl⟩
abbrev main_v31 : Ref sig .tc := ⟨.hbm, 55, rfl⟩
abbrev main_v32 : Ref sig .tc := ⟨.hbm, 56, rfl⟩
abbrev main_cst_14 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_15 : Ref sig .tc := ⟨.hbm, 61, rfl⟩
abbrev main_v36 : Ref sig .tc := ⟨.hbm, 62, rfl⟩
abbrev main_v37 : Ref sig .tc := ⟨.hbm, 63, rfl⟩
abbrev main_cst_16 : Ref sig .tc := ⟨.hbm, 64, rfl⟩
abbrev main_call2_v0 : Ref sig .tc := ⟨.hbm, 65, rfl⟩
abbrev main_call2_v1 : Ref sig .tc := ⟨.hbm, 66, rfl⟩
abbrev main_v38 : Ref sig .tc := ⟨.hbm, 67, rfl⟩
abbrev main_cst_17 : Ref sig .tc := ⟨.hbm, 68, rfl⟩
abbrev main_v39 : Ref sig .tc := ⟨.hbm, 69, rfl⟩
abbrev main_v40 : Ref sig .tc := ⟨.hbm, 70, rfl⟩
abbrev main_cst_18 : Ref sig .tc := ⟨.hbm, 71, rfl⟩
abbrev main_v41 : Ref sig .tc := ⟨.hbm, 72, rfl⟩
abbrev main_v42 : Ref sig .tc := ⟨.hbm, 73, rfl⟩
abbrev main_cst_19 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_20 : Ref sig .tc := ⟨.hbm, 78, rfl⟩
abbrev main_v46 : Ref sig .tc := ⟨.hbm, 79, rfl⟩
abbrev main_v47 : Ref sig .tc := ⟨.hbm, 80, rfl⟩
abbrev main_cst_21 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_22 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_23 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_24 : Ref sig .tc := ⟨.hbm, 95, rfl⟩
abbrev main_v59 : Ref sig .tc := ⟨.hbm, 96, rfl⟩
abbrev main_v60 : Ref sig .tc := ⟨.hbm, 97, rfl⟩
abbrev main_cst_25 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_26 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_27 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_28 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_29 : Ref sig .tc := ⟨.hbm, 118, rfl⟩
abbrev main_call3_v0 : Ref sig .tc := ⟨.hbm, 119, rfl⟩
abbrev main_call3_v1 : Ref sig .tc := ⟨.hbm, 120, rfl⟩
abbrev main_v77 : Ref sig .tc := ⟨.hbm, 121, rfl⟩
abbrev main_cst_30 : Ref sig .tc := ⟨.hbm, 122, rfl⟩
abbrev main_v78 : Ref sig .tc := ⟨.hbm, 123, rfl⟩
abbrev main_cst_31 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩

abbrev nD : Nat := 1
abbrev τ : Topo := Topo.v7x

variable {F : FTy → Type} [FloatOps F]

class Facts₀ : Prop where
  bcast_S_S8388608x1 : S_.BroadcastsInDim S8388608x1 (![] : Fin 0 → Fin S8388608x1.rank)
  reducesTo_S8388608x1_S_d0_1 : S8388608x1.ReducesTo [0, 1] S_
  h_S_ : 0 < S_.numel

variable [Facts₀]

class Facts : Prop extends Facts₀ where

variable [Facts]
-- ==== Proof.Found.lean ====
/-
  What one run of the kernel body leaves in the output block.

  The body is run in two cases. At the first grid point it stores the zero block, reads it back, and stores
  (read-back) + (this point's reduction): its two stores cover the [1,1] block, the later one on top. At every other
  point it reads what the point before left and stores (that) + (this point's reduction): one covering store. Read back
  as a value, the block therefore ends at the store's payload — a pure function of the three input blocks and of the
  block's content before the store (the zero block at the first point).
-/
import proofs.«164681_j45337674776928_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

/-- Every load and store of the body is at the zero offset of its buffer. -/
theorem hz : (![0, 0] : Fin 2 → Nat) = fun _ => 0 := funext fun a => by fin_cases a <;> rfl

/-- The store's payload over the three input blocks `x0` (pressures), `x1` (rates), `x2` (flows) and the output
    block's content `xo` before it: `xo` plus the reduction of the masked residual magnitudes. -/
abbrev stored (x0 x1 x2 : Vec F S8192x128 .f32) (xo : Vec F S1x1 .f32) : Vec F S1x1 .f32 :=
  k0_pay1 (k0_pay8 (k0_pay3 x0) (k0_pay4 x0) (k0_pay5 x0) (k0_pay6 x0) k0_pay7) (k0_pay9 x1)
    (Scalar.ofBits .f32 0x3A83126F#32) x2 xo

/-- A LATER POINT: over a block holding `xo` the body leaves the payload over `xo`. -/
theorem out_B (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x128 .f32) (h3 : a3.IsWhole)
    (a4 : Memref sig .tc .vmem S1x1 .f32) (h4 : a4.IsWhole) (hc : ¬cond0_0 i)
    (x0 x1 x2 : Vec F S8192x128 .f32) (xo : Vec F S1x1 .f32) :
    out0_B_3 c i a1 h1 a2 h2 a3 h3 a4 h4 hc x0 x1 x2 xo = stored x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S8192x128) hz, View.ld_unit_zero (S := S1x1) hz]

/-- THE FIRST POINT: the body leaves the payload over the zero block it has just stored. -/
theorem out_A (c : Dev nD) (i : grid0.Coords) (a1 : Memref sig .tc .vmem S8192x128 .f32) (h1 : a1.IsWhole)
    (a2 : Memref sig .tc .vmem S8192x128 .f32) (h2 : a2.IsWhole) (a3 : Memref sig .tc .vmem S8192x128 .f32) (h3 : a3.IsWhole)
    (a4 : Memref sig .tc .vmem S1x1 .f32) (h4 : a4.IsWhole) (hc : cond0_0 i)
    (x0 x1 x2 : Vec F S8192x128 .f32) :
    out0_A_3 c i a1 h1 a2 h2 a3 h3 a4 h4 hc x0 x1 x2 = stored x0 x1 x2 k0_pay2 := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S8192x128) hz, View.ld_unit_zero (S := S1x1) hz]

end Cert.KernelIdeal.Body

end
-- ==== Proof.Elementwise.lean ====
/-
  The loss term of one sample, as a function on the extended reals.

  For a predicted pressure word `p`, a pressure rate `d` and a mass flow `q` the summand is
      if |d| ≥ ε then | V · ρ'(u) · d − q | else 0,      u = max (p · 0.1, 1000),
  where ρ' is the derivative of the mixture density: with the smoothstep blend θ(u) between the atmospheric and the
  full-dissolution pressure, its derivative θ'(u), the entrained-air factor  w(u) = (p_atm / u)^(1/n)  and the liquid
  term  e(u) = exp (−(u − p_atm) / β) / β,
      ρ'(u) = ρ₀ · (e + a·w·(θ / (u·n) − θ')) / (β·e + a·w·θ)².
  Two programs spell this term differently in three places: the cube  x·(x·x)  or  (x·x)·x, the negation  0 − y  or
  −y, and the power  exp (c · log z)  or  z ^ c. The term is therefore stated once over the three spellings, and the
  two instances are shown equal: the first two by commutativity and `0 − y = −y`, the third because the base
  z = p_atm / u is a positive real or zero (u ≥ 1000 > 0, u = +∞ included), where both sides are the real power.
  Every float literal stays the word it is written as; only the four words the power law needs are evaluated.
-/
import Idealize.ShloMosaic.PureOps.Ideal
import Idealize.ShloMosaic.PureOps.Ideal.Laws

noncomputable section

namespace Cert.Loss

open Idealize.ShloMosaic

/-- The extended real an f32 word denotes. -/
abbrev lit (b : BitVec 32) : EReal := Ideal.ofBits .f32 b

/-- The pressure the term is evaluated at: a tenth of the prediction, floored at 1000. -/
def pUsed (p : EReal) : EReal := max (p * lit 0x3DCCCCCD#32) (lit 0x447A0000#32)

/-- The position of `u` between the atmospheric and the full-dissolution pressure. -/
def frac (u : EReal) : EReal := Ideal.div (u - lit 0x47C5E680#32) (lit 0x4A30EBCC#32)

/-- The smoothstep blend: 1 at or below atmospheric pressure, 0 at or above full dissolution, 1 − 3x² + 2x³ between. -/
def theta (cube : EReal → EReal) (u : EReal) : EReal :=
  Scalar.select (Ideal.cmp .ole u (lit 0x47C5E680#32)) (lit 0x3F800000#32)
    (Scalar.select (Ideal.cmp .oge u (lit 0x4A371B00#32)) (lit 0x00000000#32)
      ((lit 0x3F800000#32 - lit 0x40400000#32 * (frac u * frac u)) + lit 0x40000000#32 * cube (frac u)))

/-- Its derivative: 6 (u − p_atm)(u − p_crit) / L³ strictly inside the interval, 0 elsewhere. -/
def dtheta (u : EReal) : EReal :=
  Scalar.select (IntOp.andi (Ideal.cmp .ogt u (lit 0x47C5E680#32)) (Ideal.cmp .olt u (lit 0x4A371B00#32)))
    (Ideal.div ((lit 0x40C00000#32 * (u - lit 0x47C5E680#32)) * (u - lit 0x4A371B00#32)) (lit 0x5FA90036#32))
    (lit 0x00000000#32)

/-- The liquid term exp (−(u − p_atm) / β) / β. -/
def liquid (ng : EReal → EReal) (u : EReal) : EReal :=
  Ideal.div (Ideal.exp (Ideal.div (ng (u - lit 0x47C5E680#32)) (lit 0x4ED693A4#32))) (lit 0x4ED693A4#32)

/-- The air term a · w(u), `w` the power (p_atm / u)^(1/n) in the program's spelling. -/
def air (pw : EReal → EReal) (u : EReal) : EReal := lit 0x3BA4A9CF#32 * pw u

/-- The density derivative ρ'(u). -/
def drho (cube ng pw : EReal → EReal) (u : EReal) : EReal :=
  Ideal.div
    (lit 0x4454C065#32 * (liquid ng u + air pw u * (Ideal.div (theta cube u) (u * lit 0x3FB33333#32) - dtheta u)))
    ((lit 0x4ED693A4#32 * liquid ng u + air pw u * theta cube u) * (lit 0x4ED693A4#32 * liquid ng u + air pw u * theta cube u))

/-- The residual V · ρ'(u) · d − q. -/
def residual (cube ng pw : EReal → EReal) (p d q : EReal) : EReal :=
  (lit 0x3A83126F#32 * drho cube ng pw (pUsed p)) * d - q

/-- One sample's summand: the residual's magnitude where |d| ≥ ε, else 0. -/
def term (cube ng pw : EReal → EReal) (p d q : EReal) : EReal :=
  Scalar.select (Ideal.cmp .oge (max d (-d)) (lit 0x2B8CBCCC#32))
    (max (residual cube ng pw p d q) (-(residual cube ng pw p d q))) (lit 0x00000000#32)

/-- THE LOSS from the total of the summands: exp (log λ) · (total / N), N = 8388608 the sample count's word. -/
def loss (lam total : EReal) : EReal := Ideal.hostUnary .exp lam * Ideal.div total (lit 0x4B000000#32)

/-! ## The two spellings -/

/-- The cube as x · (x · x). -/
def cubeL (x : EReal) : EReal := x * (x * x)
/-- The cube as (x · x) · x. -/
def cubeR (x : EReal) : EReal := (x * x) * x
/-- The negation as 0 − y. -/
def negSub (y : EReal) : EReal := lit 0x00000000#32 - y
/-- The power (p_atm / u)^(1/n) as exp ((1/n) · log (p_atm / u)). -/
def powExpLog (u : EReal) : EReal :=
  Ideal.exp (lit 0x3F36DB6E#32 * Ideal.log (Ideal.div (lit 0x47C5E680#32) u))
/-- The same power as a power. -/
def powPow (u : EReal) : EReal := Ideal.pow (Ideal.div (lit 0x47C5E680#32) u) (lit 0x3F36DB6E#32)

/-- The summand in the first spelling. -/
def termExpLog (p d q : EReal) : EReal := term cubeL negSub powExpLog p d q
/-- The summand in the second spelling. -/
def termPow (p d q : EReal) : EReal := term cubeR (fun y => -y) powPow p d q

/-! ## The words the power law reads -/

theorem lit_floor : lit 0x447A0000#32 = ((1000 : ℝ) : EReal) := by
  simp [lit, Ideal.ofBits, Ideal.ieee, -EReal.coe_mul]; norm_num

theorem lit_atm : lit 0x47C5E680#32 = ((101325 : ℝ) : EReal) := by
  simp [lit, Ideal.ofBits, Ideal.ieee, -EReal.coe_mul]; norm_num

theorem lit_expo : lit 0x3F36DB6E#32 = ((11983726 / 16777216 : ℝ) : EReal) := by
  simp [lit, Ideal.ofBits, Ideal.ieee, -EReal.coe_mul]; norm_num

/-! ## The power law -/

/-- For positive reals `a`, `c` and an extended real `u` at or above a positive real, exp (c · log (a / u)) is
    (a / u) ^ c: at a real `u` the base a / u is a positive real and the two sides are the real power's
    definition; at u = +∞ the base is 0, its logarithm −∞, and both sides are 0. -/
theorem exp_mul_log_div_eq_pow {a c K : ℝ} (ha : 0 < a) (hc : 0 < c) (hK : 0 < K) (u : EReal) (hu : (K : EReal) ≤ u) :
    Ideal.exp ((c : EReal) * Ideal.log (Ideal.div (a : EReal) u)) = Ideal.pow (Ideal.div (a : EReal) u) (c : EReal) := by
  induction u using EReal.rec with
  | bot => exact absurd hu (by simp)
  | top =>
    have h1 : Ideal.div (a : EReal) ⊤ = ((0 : ℝ) : EReal) := by
      simp [Ideal.div]
    rw [h1, Ideal.log_coe, if_pos le_rfl, EReal.coe_mul_bot_of_pos hc, Ideal.exp_bot, Ideal.pow_coe_coe]
    show (0 : EReal) = ((Real.rpow 0 c : ℝ) : EReal)
    rw [Real.rpow_eq_pow, Real.zero_rpow hc.ne', EReal.coe_zero]
  | coe r =>
    have hr : 0 < r := lt_of_lt_of_le hK (by exact_mod_cast hu)
    have h1 : Ideal.div (a : EReal) (r : EReal) = ((a * r⁻¹ : ℝ) : EReal) := by
      have hne : (r : EReal) ≠ 0 := by exact_mod_cast hr.ne'
      rw [Ideal.div, if_neg hne, ← EReal.coe_inv, ← EReal.coe_mul]
    have hpos : 0 < a * r⁻¹ := mul_pos ha (inv_pos.mpr hr)
    rw [h1, Ideal.log_coe, if_neg (not_le.mpr hpos), ← EReal.coe_mul, Ideal.exp_coe, Ideal.pow_coe_coe]
    congr 1
    rw [Real.rpow_eq_pow, Real.rpow_def_of_pos hpos, mul_comm]

/-- So the two spellings of the power agree at every floored pressure. -/
theorem powExpLog_pUsed (p : EReal) : powExpLog (pUsed p) = powPow (pUsed p) := by
  unfold powExpLog powPow
  rw [lit_atm, lit_expo]
  refine exp_mul_log_div_eq_pow (K := 1000) (by norm_num) (by norm_num) (by norm_num) _ ?_
  unfold pUsed
  rw [lit_floor]
  exact le_max_right _ _

/-- The two cubes are one function. -/
theorem cubeL_eq : cubeL = cubeR := funext fun x => mul_comm x (x * x)

/-- Subtracting from the zero word is negation. -/
theorem negSub_eq : negSub = fun y => -y := funext fun y => by
  unfold negSub
  rw [show lit 0x00000000#32 = 0 from Ideal.ofBits_zero_f32, sub_eq_add_neg, zero_add]

/-- THE SUMMAND's two spellings agree at all extended reals. -/
theorem termExpLog_eq_termPow (p d q : EReal) : termExpLog p d q = termPow p d q := by
  unfold termExpLog termPow
  rw [cubeL_eq, negSub_eq]
  unfold term residual drho air
  rw [powExpLog_pUsed]

end Cert.Loss

end
-- ==== Proof.BlockSum.lean ====
/-
  The value one grid point adds to the running total.

  The kernel body's one store into its [1,1] output block writes, at the block's one index,
      (what the block held) + ∑ over the [8192,128] input blocks' indices k of  term (x₀ k) (x₁ k) (x₂ k),
  `term` the loss summand of one sample (Proof/Elementwise.lean, in the spelling with exp ∘ log), x₀ the block of
  predicted pressures, x₁ of pressure rates, x₂ of mass flows. The sum is the body's reduction of the masked magnitudes,
  re-laid as [1,8192,128], over the two long axes into the shape [1]: at the ideal values that is the total over every
  index, and the re-laying is a bijection of indices, so the total is the sum over the [8192,128] block itself.
-/
import proofs.«164681_j45337674776928_1_alg».proof.Proof.Gen.KernelIdeal.Skeleton
import proofs.«164681_j45337674776928_1_alg».proof.Proof.Elementwise
import Idealize.ShloMosaic.Lib.Pipeline.Value
import Idealize.ShloMosaic.Lib.ValueIdx
import Idealize.ShloMosaic.PureOps.Ideal.Laws

noncomputable section

namespace Cert.KernelIdeal.BlockSum

open Cert.KernelIdeal Cert.KernelIdeal.Gen Idealize.ShloMosaic Idealize.ShloMosaic.ValueIdx

/-- The total of a block re-laid as [1,8192,128] and reduced over its two long axes: the sum over the block. -/
theorem total_relaid (v : FVec Ideal S8192x128 .f32) (hc : S8192x128.ShapeCasts S1x8192x128)
    (h : S1x8192x128.Reduces [1, 2] S1) (hφ : FKind.Formats .f32)
    (hacc : (0x00000000#32 : BitVec 32) = FKind.add.neutral .f32 hφ) (j : S1.Idx) :
    multiReduction .add [1, 2] S1 (shapeCast S1x8192x128 v hc) 0x00000000#32 h hφ hacc j = ∑ k : S8192x128.Idx, v k :=
  (Ideal.multiReduction_add_total (shapeCast S1x8192x128 v hc) 0x00000000#32 h
    (fun b => by match b with | ⟨0, _⟩ => rfl) hφ hacc j).trans
    (Equiv.sum_comp (Shape.reshapeEquiv hc) v)

/-- THE STORE'S VALUE at the output block's index: the block's previous content plus the sum, over the input blocks'
    indices, of the masked magnitude of `(c · r k) · d k − q k` — `r` the density derivative, `d` the rates, `q` the
    flows, `c` the volume word. -/
theorem pay1_apply (r d : FVec Ideal S8192x128 .f32) (c : Ideal .f32) (q : Vec Ideal S8192x128 .f32)
    (acc : Vec Ideal S1x1 .f32) (j : S1x1.Idx) :
    k0_pay1 r d c q acc j = acc j + ∑ k : S8192x128.Idx,
      Scalar.select (Ideal.cmp .oge (max (d k) (-(d k))) (Loss.lit 0x2B8CBCCC#32))
        (max ((c * r k) * d k - q k) (-((c * r k) * d k - q k))) (Loss.lit 0x00000000#32) := by
  unfold k0_pay1
  rw [shapeCast_self q, shapeCast_self acc]
  refine congrArg (acc j + ·) ?_
  refine (shapeCast_apply _ shapeCasts_S1_S1x1x1 _ (ix1 (0 : Fin 1)) rfl).trans ?_
  exact total_relaid _ _ _ _ _ _

/-! ## The body's arithmetic at an index, piece by piece -/

/-- The floored pressure at an index. -/
theorem pay3_apply (x0 : Vec Ideal S8192x128 .f32) (k : S8192x128.Idx) : k0_pay3 x0 k = Loss.pUsed (x0 k) := by
  unfold k0_pay3
  rw [shapeCast_self x0]
  rfl

/-- The blend θ at an index, of the floored pressure there. -/
theorem pay5_apply (x0 : Vec Ideal S8192x128 .f32) (k : S8192x128.Idx) :
    k0_pay5 x0 k = Loss.theta Loss.cubeL (k0_pay3 x0 k) := by
  unfold k0_pay5
  rfl

/-- The mask "strictly between the two pressures" at an index. -/
theorem pay4_apply (x0 : Vec Ideal S8192x128 .f32) (k : S8192x128.Idx) :
    k0_pay4 x0 k = IntOp.andi (Ideal.cmp .ogt (k0_pay3 x0 k) (Loss.lit 0x47C5E680#32))
      (Ideal.cmp .olt (k0_pay3 x0 k) (Loss.lit 0x4A371B00#32)) := by
  unfold k0_pay4
  rfl

/-- The excess over atmospheric pressure at an index. -/
theorem pay6_apply (x0 : Vec Ideal S8192x128 .f32) (k : S8192x128.Idx) :
    k0_pay6 x0 k = k0_pay3 x0 k - Loss.lit 0x47C5E680#32 := by
  unfold k0_pay6
  rfl

/-- The splat of 6. -/
theorem pay7_apply (k : S8192x128.Idx) : k0_pay7 (F := Ideal) k = Loss.lit 0x40C00000#32 := rfl

/-- The density derivative at an index, from the five values it is computed from there: the floored pressure `u`, the
    mask, θ(u), the excess and the splat of 6. -/
theorem pay8_apply (v8 : FVec Ideal S8192x128 .f32) (v27 : IVec S8192x128 1) (v35 v37 v38 : FVec Ideal S8192x128 .f32)
    (k : S8192x128.Idx) (u : EReal) (h8 : v8 k = u)
    (h27 : v27 k = IntOp.andi (Ideal.cmp .ogt u (Loss.lit 0x47C5E680#32)) (Ideal.cmp .olt u (Loss.lit 0x4A371B00#32)))
    (h35 : v35 k = Loss.theta Loss.cubeL u) (h37 : v37 k = u - Loss.lit 0x47C5E680#32)
    (h38 : v38 k = Loss.lit 0x40C00000#32) :
    k0_pay8 v8 v27 v35 v37 v38 k = Loss.drho Loss.cubeL Loss.negSub Loss.powExpLog u := by
  unfold k0_pay8
  simp only [mulf, subf, addf, divf, exp, log, select, broadcast, h8, h27, h35, h37, h38]
  rfl

/-- THE STORE'S VALUE over the three input blocks: the previous content plus the block's sum of loss summands. The
    body's arithmetic at an index is the summand's first spelling, operation for operation. -/
theorem store_apply (x0 x1 x2 : Vec Ideal S8192x128 .f32) (acc : Vec Ideal S1x1 .f32) (j : S1x1.Idx) :
    k0_pay1 (k0_pay8 (k0_pay3 x0) (k0_pay4 x0) (k0_pay5 x0) (k0_pay6 x0) k0_pay7) (k0_pay9 x1)
        (Scalar.ofBits .f32 0x3A83126F#32) x2 acc j
      = acc j + ∑ k : S8192x128.Idx, Loss.termExpLog (x0 k) (x1 k) (x2 k) := by
  refine (pay1_apply _ _ _ _ _ j).trans ?_
  refine congrArg (acc j + ·) (Finset.sum_congr rfl fun k _ => ?_)
  rw [pay8_apply (k0_pay3 x0) (k0_pay4 x0) (k0_pay5 x0) (k0_pay6 x0) k0_pay7 k (Loss.pUsed (x0 k)) (pay3_apply x0 k)
    (by rw [pay4_apply, pay3_apply]) (by rw [pay5_apply, pay3_apply]) (by rw [pay6_apply, pay3_apply]) (pay7_apply k)]
  unfold k0_pay9
  rw [shapeCast_self x1]
  rfl

end Cert.KernelIdeal.BlockSum

end
-- ==== Proof.Running.lean ====
/-
  The running total across the grid.

  The output block is not written back between grid points, so after point `n` it holds the first point's value
  stepped through points 1 … n. At the ideal values each step adds that point's block sum — the sum, over the point's
  [8192,128] input blocks, of the loss summands — so after point `n` the block's one entry is
      0 + ∑ s ≤ n, (block sum of point s),
  by induction on the point. A point's block sum is stated for every natural number (zero past the grid), so that the
  sum over a range needs no bound proofs.
-/
import proofs.«164681_j45337674776928_1_alg».proof.Proof.Found
import proofs.«164681_j45337674776928_1_alg».proof.Proof.BlockSum

set_option maxRecDepth 16384

noncomputable section

open Idealize.ShloMosaic Idealize.ShloMosaic.TcCoe Idealize.SL.Sem
open Idealize.ShloMosaic.Pipeline (Dat)

namespace Cert.KernelIdeal.Running

open Cert.KernelIdeal Cert.KernelIdeal.Gen

variable (m : (ℓ : Loc nD τ sig) → Buf (Elt Ideal) ℓ)

/-- The sum of the loss summands over point `s`'s three input blocks (0 for `s` past the grid). -/
def blockSum (c : Dev nD) (s : ℕ) : EReal :=
  if h : s < cfg0.N then
    ∑ k : S8192x128.Idx, Loss.termExpLog (iblk m c 0 ⟨s, h⟩ k) (iblk m c 1 ⟨s, h⟩ k) (iblk m c 2 ⟨s, h⟩ k)
  else 0

/-- At a point of the grid it is that point's sum. -/
theorem blockSum_of_lt (c : Dev nD) (s : ℕ) (h : s < cfg0.N) :
    blockSum m c s
      = ∑ k : S8192x128.Idx, Loss.termExpLog (iblk m c 0 ⟨s, h⟩ k) (iblk m c 1 ⟨s, h⟩ k) (iblk m c 2 ⟨s, h⟩ k) :=
  dif_pos h

/-- AFTER POINT `n` the output block's entry is the zero word plus the block sums of points 0 … n. -/
theorem outsAt_eq (c : Dev nD) : ∀ (n : ℕ) (h : n < cfg0.N) (j : S1x1.Idx),
    outsAt0 m c n h j = Loss.lit 0x00000000#32 + ∑ s ∈ Finset.range (n + 1), blockSum m c s
  | 0, h, j => by
    have e1 := congrFun ((outsAt0_A m c ⟨0, h⟩ rfl).trans (Body.out_A ..)) j
    refine e1.trans ((BlockSum.store_apply _ _ _ _ j).trans ?_)
    rw [Finset.sum_range_one, blockSum_of_lt m c 0 h]
    rfl
  | n + 1, h, j => by
    have hN : n + 1 < 8 := lt_of_lt_of_eq h N_0
    have hB : ¬(⟨n + 1, h⟩ : Fin cfg0.N).val % 8 = 0 := by dsimp only; omega
    have e1 := congrFun ((outsAt0_B m c ⟨n + 1, h⟩ hB).trans (Body.out_B ..)) j
    refine e1.trans ((BlockSum.store_apply _ _ _ _ j).trans ?_)
    show outsAt0 m c n _ j + _ = _
    rw [outsAt_eq c n (Nat.lt_of_succ_lt h) j, Finset.sum_range_succ _ (n + 1), blockSum_of_lt m c (n + 1) h, add_assoc]

end Cert.KernelIdeal.Running

end
-- ==== Proof.KernelValue.lean ====
/-
  The result array after the region, and @main's result after the host operations that follow it.

  The output window's block index never moves, so the block is written back once, after the last grid point, and that
  one block is the whole [1,1] result array: the array ends holding what the block held after point 7, the zero word plus
  the eight block sums (Proof/Running.lean). After the region @main re-lays the [1,1] array as a scalar, divides it by
  the sample count's word and multiplies by exp of the last argument, which no operation before or after the region
  writes: the result is the loss (Proof/Elementwise.lean) of the accumulated total.
-/
import proofs.«164681_j45337674776928_1_alg».proof.Proof.Running
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx

variable (m : (ℓ : Loc nD τ sig) → Buf (Elt Ideal) ℓ) (ρ : Dev nD → PrngReg)

/-- The last grid point. -/
theorem last_lt : 7 < cfg0.N := by rw [show cfg0.N = 8 from N_0]; decide

/-- What the output block holds after the last point, as contents of the [1,1] result array (its one block). -/
abbrev result (c : Dev nD) : Buf (Elt Ideal) ((c : Thread nD τ).loc main_v3) := outsAt0 m c 7 last_lt

/-- The output window sits at block (0, 0) of its array at every grid point, and that block is the whole [1,1] array. -/
theorem block_origin : ∀ (t : Fin cfg0.N) (a : Fin 2),
    win0_3.index t a * win0_3.size a = 0 ∧ win0_3.xsize (grid0.coords t) a = 1 :=
  (by decide +kernel : ∀ (t : Fin grid0.N) (a : Fin 2),
    win0_3.index t a * win0_3.size a = 0 ∧ win0_3.xsize (grid0.coords t) a = 1)

/-- The block is written back at the last point only; read through that block's view — the whole array at offset
    zero — an array's contents are themselves, so what is written back is what the block held after point 7. -/
theorem flushed_eq (c : Dev nD) (t : Fin cfg0.N) (hf : (cfg0.win 3).flush t = true) :
    (dats m 0 c).flushed 3 t = ((cfg0.win 3).blk t).view.read (Elt Ideal) (result m c) := by
  obtain rfl : t = t0_7 :=
    Fin.ext (by have h1 := (flush0_3 t).mp hf; have h2 := lt_of_lt_of_eq t.isLt N_0; show t.val = 7; omega)
  have hoff : (fun a => win0_3.index t0_7 a * main_v3.ty.shape.size a) = fun _ => 0 :=
    funext fun a => (block_origin t0_7 a).1
  have hread := Memref.read_access_unit_zero (Elt Ideal) main_v3 hoff
    (fun a => by rw [congrFun hoff a, Nat.zero_add]) (result m c)
  show (cfg0.win 3).cut (grid0.coords t0_7) ((dats m 0 c).after 3 t0_7) = _
  rw [after0_3]
  exact hread.symm

/-- Every index of the [1,1] array lies in the block the last point writes back. -/
theorem covered (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨t0_7, (flush0_3 t0_7).mpr rfl, ?_⟩
  show i ∈ ((View.whole main_v3).slice (win0_3.rect t0_7)).set
  rw [View.set_slice_whole, Rect.mem_set_unit]
  intro a
  obtain ⟨h0, h1⟩ := block_origin t0_7 a
  have hs : main_v3.ty.shape.size a = 1 := (by decide : ∀ a : Fin 2, (![1, 1] : Fin 2 → ℕ) a = 1) a
  have hi : (i a).val < 1 := lt_of_lt_of_eq (i a).isLt hs
  rw [h0, h1]
  exact ⟨Nat.zero_le _, by rw [Nat.zero_add]; exact hi⟩

/-- So the result array ends holding it. -/
theorem final (c : Dev nD) : (dats m 0 c).arrAt 3 cfg0.N = result m c :=
  (dats m 0 c).arrAt_eq_of_cover 3 (result m c) (flushed_eq m c) (covered c)

/-- The total the kernel accumulates: the zero word plus the eight points' block sums. -/
def total (c : Dev nD) : EReal := Loss.lit 0x00000000#32 + ∑ s ∈ Finset.range 8, Running.blockSum m c s

/-- THE RESULT of @main, read off the host operations after the region: the [1,1] array re-laid as a scalar is the
    accumulated total; divided by the sample count and scaled by exp of the last argument it is the loss. -/
theorem out_apply (c : Dev nD) (i : S_.Idx) :
    Pipeline.afterTail₀ cfgs (dats m) 0 (V0 m) [hostOps1] c main_v7 i
      = Loss.loss (m ((c : Thread nD τ).loc main_arg4) i) (total m c) := by
  unfold Pipeline.afterTail₀
  show StableHlo.after hostOps1 _ (Proc.devRef .tc main_v7) i = _
  after_results
  have hA : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have hR : Pipeline.withArrays (cfgs 0).spec c (V0 m c) (fun w => (dats m 0 c).arrAt w (cfgs 0).N) (Proc.devRef .tc main_v3)
      = result m c :=
    (Pipeline.withArrays_arr spec0 launch0.win.arr_inj c _ _ 3).trans (final m c)
  rw [hA, hR]
  show Ideal.hostUnary .exp (m ((c : Thread nD τ).loc main_arg4) i)
      * Ideal.div (shapeCast S_ (result m c) shapeCasts_S1x1_S_ i) (Loss.lit 0x4B000000#32) = _
  rw [shapeCast_apply (result m c) shapeCasts_S1x1_S_ i (ix2 (0 : Fin 1) (0 : Fin 1)) rfl,
    show result m c (ix2 (0 : Fin 1) (0 : Fin 1)) = _ from Running.outsAt_eq m c 7 last_lt _]
  rfl

end Cert.KernelIdeal.Result

end
-- ==== Proof.Reindex.lean ====
/-
  The grid's blocks enumerate the samples once each.

  Entry `k = (k₀, k₁)` of grid point `s`'s [8192,128] blocks is the sample at row-major position
  `(8192 s + k₀) · 128 + k₁` of the [8388608,1] arrays. Over the 8 points and the 8192 · 128 entries of a block these
  positions are distinct (the mixed-radix digits of a number are unique) and every position below 8388608 has such digits,
  so the map is a bijection onto the samples, and a sum over the samples is the sum over the points of the sums over the
  blocks — in any commutative monoid, the extended reals among them.
-/
import Idealize.ShloMosaic.Lib.ValueIdx

noncomputable section

namespace Cert.Loss

open Idealize.ShloMosaic Idealize.ShloMosaic.ValueIdx

/-- An index of a [8192,128] block. -/
abbrev BlockIdx : Type := (⟨2, ![8192, 128]⟩ : Shape).Idx
/-- An index of a [8388608,1] array: a sample. -/
abbrev SampleIdx : Type := (⟨2, ![8388608, 1]⟩ : Shape).Idx

/-- The sample that entry `k` of grid point `s`'s blocks is. -/
def sample (s : ℕ) (hs : s < 8) (k : BlockIdx) : SampleIdx :=
  ix2 ⟨(s * 8192 + (k 0).val) * 128 + (k 1).val, by have := idx2_lt0 k; have := idx2_lt1 k; omega⟩ (0 : Fin 1)

/-- The same on pairs (point, entry). -/
def samplePair (x : Fin 8 × BlockIdx) : SampleIdx := sample x.1.val x.1.isLt x.2

theorem samplePair_injective : Function.Injective samplePair := by
  rintro ⟨s, k⟩ ⟨s', k'⟩ h
  have hv : (s.val * 8192 + (k 0).val) * 128 + (k 1).val = (s'.val * 8192 + (k' 0).val) * 128 + (k' 1).val :=
    congrArg (fun j : SampleIdx => (j 0).val) h
  have h0 := idx2_lt0 k; have h1 := idx2_lt1 k; have h0' := idx2_lt0 k'; have h1' := idx2_lt1 k'
  have hs := s.isLt; have hs' := s'.isLt
  have e1 : s.val = s'.val := by omega
  have e2 : (k 0).val = (k' 0).val := by omega
  have e3 : (k 1).val = (k' 1).val := by omega
  refine Prod.ext (Fin.ext e1) ?_
  rw [eq_ix2 k, eq_ix2 k']
  show ix2 (k 0) (k 1) = ix2 (k' 0) (k' 1)
  rw [Fin.ext e2, Fin.ext e3]

theorem samplePair_surjective : Function.Surjective samplePair := by
  intro j
  have hj := idx2_lt0 j
  refine ⟨(⟨(j 0).val / 1048576, by omega⟩, ix2 ⟨(j 0).val / 128 % 8192, by omega⟩ ⟨(j 0).val % 128, by omega⟩), ?_⟩
  refine Eq.trans (?_ : _ = ix2 (j 0) (j 1)) (eq_ix2 j).symm
  show ix2 _ _ = ix2 (j 0) (j 1)
  congr 1
  · exact Fin.ext (show ((j 0).val / 1048576 * 8192 + (j 0).val / 128 % 8192) * 128 + (j 0).val % 128 = (j 0).val by omega)
  · exact Fin.ext (by have := idx2_lt1 j; show 0 = (j 1).val; omega)

theorem samplePair_bijective : Function.Bijective samplePair := ⟨samplePair_injective, samplePair_surjective⟩

/-- A SUM OVER THE SAMPLES is the sum over the eight points of the sums over a block's entries. -/
theorem sum_samples {M : Type*} [AddCommMonoid M] (g : SampleIdx → M) :
    ∑ s ∈ Finset.range 8, (if h : s < 8 then ∑ k : BlockIdx, g (sample s h k) else 0) = ∑ j : SampleIdx, g j := by
  rw [Finset.sum_range fun s => if h : s < 8 then ∑ k : BlockIdx, g (sample s h k) else 0]
  rw [← Function.Bijective.sum_comp samplePair_bijective g, Fintype.sum_prod_type]
  refine Finset.sum_congr rfl fun s _ => ?_
  rw [dif_pos s.isLt]
  rfl

end Cert.Loss

end
-- ==== Proof.Blocks.lean ====
/-
  The input blocks as entries of the argument arrays.

  Before the region @main re-lays each of the three [8388608,1] arguments it uses as [65536,128]; window `w`'s block at
  grid point `t` is rows 8192 t … 8192 t + 8191 of that re-laying. Entry `k` of the block is therefore the argument's
  entry at the sample `(8192 t + k₀) · 128 + k₁` (Proof/Reindex.lean's `sample`): the pressures' window reads the fourth
  argument, the rates' the second, the flows' the third.
-/
import proofs.«164681_j45337674776928_1_alg».proof.Proof.Gen.KernelIdeal.Frame
import proofs.«164681_j45337674776928_1_alg».proof.Proof.Reindex
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Each input window's block at grid point `t` is block (t, 0) of its array: the index maps, decided over the grid. -/
theorem rows0 : ∀ t : Fin cfg0.N, win0_0.index t 0 = t.val ∧ win0_0.index t 1 = 0 :=
  (by decide +kernel : ∀ t : Fin grid0.N, win0_0.index t 0 = t.val ∧ win0_0.index t 1 = 0)
theorem rows1 : ∀ t : Fin cfg0.N, win0_1.index t 0 = t.val ∧ win0_1.index t 1 = 0 :=
  (by decide +kernel : ∀ t : Fin grid0.N, win0_1.index t 0 = t.val ∧ win0_1.index t 1 = 0)
theorem rows2 : ∀ t : Fin cfg0.N, win0_2.index t 0 = t.val ∧ win0_2.index t 1 = 0 :=
  (by decide +kernel : ∀ t : Fin grid0.N, win0_2.index t 0 = t.val ∧ win0_2.index t 1 = 0)

/-- The first window's array, as the region finds it, is the fourth argument re-laid as [65536,128]. -/
theorem V_main_v0 (c : Dev nD) :
    (V m c main_v0 : S65536x128.Idx → Elt F .f32)
      = shapeCast S65536x128 (m ((c : Thread nD τ).loc main_arg3)) shapeCasts_S8388608x1_S65536x128 := by
  show StableHlo.after hostOps0 (fun b => m (c, b)) (Proc.devRef .tc main_v0) = _
  after_results
  rfl

/-- Entry `k` of the pressures' block at point `t` is the fourth argument's entry at its sample. -/
theorem iblk0_apply (c : Dev nD) (t : Fin cfg0.N) (k : S8192x128.Idx) :
    iblk m c 0 t k = m ((c : Thread nD τ).loc main_arg3) (Loss.sample t.val (lt_of_lt_of_eq t.isLt N_0) k) := by
  have hi := rows0 t
  unfold iblk
  rw [View.read_apply]
  show V m c main_v0 _ = _
  refine (congrFun (V_main_v0 m c) _).trans ?_
  refine shapeCast_apply _ _ _ _ ?_
  show (S8388608x1.rowMajor (Loss.sample t.val (lt_of_lt_of_eq t.isLt N_0) k)).val
    = (S65536x128.rowMajor (((cfg0.win 0).blk t).view.emb k)).val
  rw [Shape.rowMajor_val_two, Shape.rowMajor_val_two]
  show ((t.val * 8192 + (k 0).val) * 128 + (k 1).val) * 1 + 0
    = (win0_0.index t 0 * 8192 + 1 * (k 0).val) * 128 + (win0_0.index t 1 * 128 + 1 * (k 1).val)
  rw [hi.1, hi.2]
  omega

/-- The second window's array, as the region finds it, is the second argument re-laid as [65536,128]. -/
theorem V_main_v1 (c : Dev nD) :
    (V m c main_v1 : S65536x128.Idx → Elt F .f32)
      = shapeCast S65536x128 (m ((c : Thread nD τ).loc main_arg1)) shapeCasts_S8388608x1_S65536x128 := by
  show StableHlo.after hostOps0 (fun b => m (c, b)) (Proc.devRef .tc main_v1) = _
  after_results
  rfl

/-- Entry `k` of the rates' block at point `t` is the second argument's entry at its sample. -/
theorem iblk1_apply (c : Dev nD) (t : Fin cfg0.N) (k : S8192x128.Idx) :
    iblk m c 1 t k = m ((c : Thread nD τ).loc main_arg1) (Loss.sample t.val (lt_of_lt_of_eq t.isLt N_0) k) := by
  have hi := rows1 t
  unfold iblk
  rw [View.read_apply]
  show V m c main_v1 _ = _
  refine (congrFun (V_main_v1 m c) _).trans ?_
  refine shapeCast_apply _ _ _ _ ?_
  show (S8388608x1.rowMajor (Loss.sample t.val (lt_of_lt_of_eq t.isLt N_0) k)).val
    = (S65536x128.rowMajor (((cfg0.win 1).blk t).view.emb k)).val
  rw [Shape.rowMajor_val_two, Shape.rowMajor_val_two]
  show ((t.val * 8192 + (k 0).val) * 128 + (k 1).val) * 1 + 0
    = (win0_1.index t 0 * 8192 + 1 * (k 0).val) * 128 + (win0_1.index t 1 * 128 + 1 * (k 1).val)
  rw [hi.1, hi.2]
  omega

/-- The third window's array, as the region finds it, is the third argument re-laid as [65536,128]. -/
theorem V_main_v2 (c : Dev nD) :
    (V m c main_v2 : S65536x128.Idx → Elt F .f32)
      = shapeCast S65536x128 (m ((c : Thread nD τ).loc main_arg2)) shapeCasts_S8388608x1_S65536x128 := by
  show StableHlo.after hostOps0 (fun b => m (c, b)) (Proc.devRef .tc main_v2) = _
  after_results
  rfl

/-- Entry `k` of the flows' block at point `t` is the third argument's entry at its sample. -/
theorem iblk2_apply (c : Dev nD) (t : Fin cfg0.N) (k : S8192x128.Idx) :
    iblk m c 2 t k = m ((c : Thread nD τ).loc main_arg2) (Loss.sample t.val (lt_of_lt_of_eq t.isLt N_0) k) := by
  have hi := rows2 t
  unfold iblk
  rw [View.read_apply]
  show V m c main_v2 _ = _
  refine (congrFun (V_main_v2 m c) _).trans ?_
  refine shapeCast_apply _ _ _ _ ?_
  show (S8388608x1.rowMajor (Loss.sample t.val (lt_of_lt_of_eq t.isLt N_0) k)).val
    = (S65536x128.rowMajor (((cfg0.win 2).blk t).view.emb k)).val
  rw [Shape.rowMajor_val_two, Shape.rowMajor_val_two]
  show ((t.val * 8192 + (k 0).val) * 128 + (k 1).val) * 1 + 0
    = (win0_2.index t 0 * 8192 + 1 * (k 0).val) * 128 + (win0_2.index t 1 * 128 + 1 * (k 1).val)
  rw [hi.1, hi.2]
  omega

end Cert.KernelIdeal.Blocks

end
-- ==== Proof.KernelTotal.lean ====
/-
  The idealized kernel's run, read: its result is the loss of the total over all samples.

  The eight block sums the kernel accumulates are sums over the blocks' entries of the loss summand at the blocks'
  entries; each entry is an argument's entry at its sample (Proof/Blocks.lean), and the blocks enumerate the samples once
  each (Proof/Reindex.lean). So the accumulated total is the zero word plus the sum of the summand over all 8388608
  samples, and the result of @main — the total divided by the sample count, scaled by exp of the last argument — is the
  loss of that total. The argument arrays end unchanged, as the frame run says.
-/
import proofs.«164681_j45337674776928_1_alg».proof.Proof.KernelValue
import proofs.«164681_j45337674776928_1_alg».proof.Proof.Blocks

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx

variable (m : (ℓ : Loc nD τ sig) → Buf (Elt Ideal) ℓ) (ρ : Dev nD → PrngReg)

/-- The loss summand (first spelling) of sample `j` of the argument arrays: pressures the fourth argument, rates the
    second, flows the third. -/
def summand (c : Dev nD) (j : Loss.SampleIdx) : EReal :=
  Loss.termExpLog (m ((c : Thread nD τ).loc main_arg3) j) (m ((c : Thread nD τ).loc main_arg1) j)
    (m ((c : Thread nD τ).loc main_arg2) j)

/-- A point's block sum is the sum of the summands of the samples its blocks hold. -/
theorem blockSum_eq (c : Dev nD) (s : ℕ) :
    Running.blockSum m c s = if h : s < 8 then ∑ k : Loss.BlockIdx, summand m c (Loss.sample s h k) else 0 := by
  by_cases h : s < 8
  · have h' : s < cfg0.N := lt_of_lt_of_eq h N_0.symm
    rw [Running.blockSum_of_lt m c s h', dif_pos h]
    refine Finset.sum_congr rfl fun k _ => ?_
    rw [Blocks.iblk0_apply, Blocks.iblk1_apply, Blocks.iblk2_apply]
    rfl
  · have h' : ¬s < cfg0.N := fun h'' => h (lt_of_lt_of_eq h'' N_0)
    rw [Running.blockSum, dif_neg h', dif_neg h]

/-- THE TOTAL the kernel accumulates is the zero word plus the sum of the summand over all samples. -/
theorem total_eq (c : Dev nD) : total m c = Loss.lit 0x00000000#32 + ∑ j : Loss.SampleIdx, summand m c j := by
  unfold total
  rw [Finset.sum_congr rfl fun s _ => blockSum_eq m c s, Loss.sum_samples]

/-- The value of @main's result: the loss of that total. -/
def value (c : Dev nD) : Buf (Elt Ideal) ((c : Thread nD τ).loc main_v7) := fun i =>
  Loss.loss (m ((c : Thread nD τ).loc main_arg4) i) (Loss.lit 0x00000000#32 + ∑ j : Loss.SampleIdx, summand m c j)

/-- THE RUN: every weakly fair execution of @main terminates with the result at the loss of the total over all samples
    and every argument array as launched. -/
theorem run : θ_run defs (onTc (τ := τ) (main (F := Ideal))) ⟨m, fun _ => 0, ρ⟩ (fun r => ∀ c : Dev nD,
      r.2.mem ((c.tc : Thread nD τ).loc main_v7) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans
        (funext fun i => (out_apply m c i).trans (by rw [total_eq]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefTerm.lean ====
/-
  The reference's summand at a sample.

  The reference computes, for every sample `i` of the three [8388608,1] arrays, the loss summand of
  Proof/Elementwise.lean in its second spelling (the cube as (x·x)·x, a negation, the power as a power), one host
  operation at a time; read at the index `i` each operation is the scalar operation on its operands there, and a
  broadcast scalar is its word. The pieces are read in the order the summand is built: the floored pressure, the
  blend, its derivative, the power, the liquid term, the density derivative, the masked magnitude.
-/
import proofs.«164681_j45337674776928_1_alg».proof.Proof.Gen.ReferenceIdeal.Read
import proofs.«164681_j45337674776928_1_alg».proof.Proof.Elementwise

noncomputable section

namespace Cert.ReferenceIdeal.RefTerm

open Cert.ReferenceIdeal Cert.ReferenceIdeal.Gen Idealize.ShloMosaic

variable (x1 x2 x3 : (⟨S8388608x1, .f32⟩ : BufTy).Contents (Elt Ideal)) (i : S8388608x1.Idx)

/-- The floored pressure of sample `i`. -/
theorem pUsed_apply : Read.val_main_v3 (F := Ideal) x3 i = Loss.pUsed (x3 i) := by
  simp only [
    Read.val_main_cst_apply, Read.val_main_v0_apply, Read.val_main_v1_apply, Read.val_main_cst_0_apply,
    Read.val_main_v2_apply, Read.val_main_v3_apply]
  rfl

/-- The blend θ of sample `i`, of its floored pressure. -/
theorem theta_apply : Read.val_main_v28 (F := Ideal) x3 i = Loss.theta Loss.cubeR (Read.val_main_v3 (F := Ideal) x3 i) := by
  simp only [
    Read.val_main_cst_1_apply, Read.val_main_v4_apply, Read.val_main_v5_apply, Read.val_main_cst_2_apply,
    Read.val_main_v6_apply, Read.val_main_v7_apply, Read.val_main_v8_apply, Read.val_main_cst_3_apply,
    Read.val_main_v9_apply, Read.val_main_v10_apply, Read.val_main_cst_4_apply, Read.val_main_v11_apply,
    Read.val_main_v12_apply, Read.val_main_v13_apply, Read.val_main_v14_apply, Read.val_main_cst_5_apply,
    Read.val_main_v15_apply, Read.val_main_v16_apply, Read.val_main_v17_apply, Read.val_main_cst_6_apply,
    Read.val_main_v18_apply, Read.val_main_v19_apply, Read.val_main_cst_7_apply, Read.val_main_v20_apply,
    Read.val_main_v21_apply, Read.val_main_v22_apply, Read.val_main_cst_8_apply, Read.val_main_v23_apply,
    Read.val_main_v24_apply, Read.val_main_cst_9_apply, Read.val_main_v25_apply, Read.val_main_v26_apply,
    Read.val_main_cst_10_apply, Read.val_main_call0_v0_apply, Read.val_main_call0_v1_apply,
    Read.val_main_v27_apply, Read.val_main_cst_11_apply, Read.val_main_call1_v0_apply,
    Read.val_main_call1_v1_apply, Read.val_main_v28_apply]
  rfl

/-- The blend's derivative θ' of sample `i`. -/
theorem dtheta_apply : Read.val_main_v38 (F := Ideal) x3 i = Loss.dtheta (Read.val_main_v3 (F := Ideal) x3 i) := by
  simp only [
    Read.val_main_cst_6_apply, Read.val_main_v18_apply, Read.val_main_v19_apply, Read.val_main_cst_7_apply,
    Read.val_main_v20_apply, Read.val_main_v21_apply, Read.val_main_v22_apply, Read.val_main_cst_12_apply,
    Read.val_main_v29_apply, Read.val_main_v30_apply, Read.val_main_cst_13_apply, Read.val_main_v31_apply,
    Read.val_main_v32_apply, Read.val_main_cst_14_apply, Read.val_main_v33_apply, Read.val_main_v34_apply,
    Read.val_main_v35_apply, Read.val_main_cst_15_apply, Read.val_main_v36_apply, Read.val_main_v37_apply,
    Read.val_main_cst_16_apply, Read.val_main_call2_v0_apply, Read.val_main_call2_v1_apply,
    Read.val_main_v38_apply]
  rfl

/-- The power (p_atm / u)^(1/n) of sample `i`. -/
theorem pow_apply : Read.val_main_v42 (F := Ideal) x3 i = Loss.powPow (Read.val_main_v3 (F := Ideal) x3 i) := by
  simp only [
    Read.val_main_cst_17_apply, Read.val_main_v39_apply, Read.val_main_v40_apply, Read.val_main_cst_18_apply,
    Read.val_main_v41_apply, Read.val_main_v42_apply]
  rfl

/-- The liquid term of sample `i`. -/
theorem liquid_apply :
    Read.val_main_v60 (F := Ideal) x3 i = Loss.liquid (fun y => -y) (Read.val_main_v3 (F := Ideal) x3 i) := by
  simp only [
    Read.val_main_cst_22_apply, Read.val_main_v53_apply, Read.val_main_v54_apply, Read.val_main_v55_apply,
    Read.val_main_cst_23_apply, Read.val_main_v56_apply, Read.val_main_v57_apply, Read.val_main_v58_apply,
    Read.val_main_cst_24_apply, Read.val_main_v59_apply, Read.val_main_v60_apply]
  rfl

/-- The density derivative of sample `i`, over the four pieces above. -/
theorem drho_apply :
    Read.val_main_v68 (F := Ideal) x3 i
      = Loss.drho Loss.cubeR (fun y => -y) Loss.powPow (Read.val_main_v3 (F := Ideal) x3 i) := by
  simp only [
    Read.val_main_cst_19_apply, Read.val_main_v43_apply, Read.val_main_v44_apply, Read.val_main_v45_apply,
    Read.val_main_cst_20_apply, Read.val_main_v46_apply, Read.val_main_v47_apply, Read.val_main_cst_21_apply,
    Read.val_main_v48_apply, Read.val_main_v49_apply, Read.val_main_v50_apply, Read.val_main_v51_apply,
    Read.val_main_v52_apply, Read.val_main_cst_25_apply, Read.val_main_v61_apply, Read.val_main_v62_apply,
    Read.val_main_v63_apply, Read.val_main_v64_apply, Read.val_main_cst_26_apply, Read.val_main_v65_apply,
    Read.val_main_v66_apply, Read.val_main_v67_apply, Read.val_main_v68_apply,
    theta_apply, dtheta_apply, pow_apply, liquid_apply]
  rfl

/-- THE REFERENCE'S SUMMAND of sample `i`: the loss summand, second spelling, of the three arrays' entries there. -/
theorem summand_apply : Read.val_main_v77 (F := Ideal) x1 x2 x3 i = Loss.termPow (x3 i) (x1 i) (x2 i) := by
  simp only [
    Read.val_main_cst_27_apply, Read.val_main_v69_apply, Read.val_main_v70_apply, Read.val_main_v71_apply,
    Read.val_main_v72_apply, Read.val_main_v73_apply, Read.val_main_cst_28_apply, Read.val_main_v74_apply,
    Read.val_main_v75_apply, Read.val_main_v76_apply, Read.val_main_cst_29_apply, Read.val_main_call3_v0_apply,
    Read.val_main_call3_v1_apply, Read.val_main_v77_apply,
    drho_apply, pUsed_apply]
  rfl

end Cert.ReferenceIdeal.RefTerm

end
-- ==== Proof.RefValue.lean ====
/-
  The reference's result: the loss of the total over all samples.

  The reference sums its summand over the [8388608,1] array from the zero word, divides by the sample count and scales
  by exp of the last argument; at the ideal values the host's sum into a scalar is the initial value plus the sum over
  every index, and the summand at a sample is the loss summand in its second spelling (Proof/RefTerm.lean).
-/
import proofs.«164681_j45337674776928_1_alg».proof.Proof.RefTerm
import proofs.«164681_j45337674776928_1_alg».proof.Proof.Reindex

noncomputable section

namespace Cert.ReferenceIdeal.RefValue

open Cert.ReferenceIdeal Cert.ReferenceIdeal.Gen Idealize.ShloMosaic

/-- THE REFERENCE'S RESULT at its one index: the loss of the zero word plus the sum of the summands over all samples. -/
theorem result_apply (x1 x2 x3 : (⟨S8388608x1, .f32⟩ : BufTy).Contents (Elt Ideal))
    (x4 : (⟨S_, .f32⟩ : BufTy).Contents (Elt Ideal)) (i : S_.Idx) :
    Read.val_main_v81 (F := Ideal) x1 x2 x3 x4 i
      = Loss.loss (x4 i) (Loss.lit 0x00000000#32 + ∑ j : Loss.SampleIdx, Loss.termPow (x3 j) (x1 j) (x2 j)) := by
  rw [Read.val_main_v81_apply, Read.val_main_v80_apply, Read.val_main_v79_apply, Read.val_main_v78_apply,
    Read.val_main_cst_31_apply, Read.val_main_cst_30_apply,
    Finset.sum_congr rfl fun j _ => RefTerm.summand_apply x1 x2 x3 j]
  rfl

end Cert.ReferenceIdeal.RefValue

end
-- ==== Proof.lean ====
/-
  The proof of `Cert.Claim`: a Pallas kernel that accumulates, over a grid of eight row blocks, the sum of a physics
  loss's per-sample magnitudes into one [1,1] block, against the plain jnp reference that sums the same magnitudes over
  the whole [8388608,1] arrays; both then divide by the sample count and scale by exp of a scalar.

  The mathematics, module by module:
    Proof/Elementwise.lean  the per-sample summand as a function on the extended reals, in the kernel's spelling
                            (x·(x·x), 0 − y, exp (c · log z)) and in the reference's ((x·x)·x, −y, z ^ c), and their
                            equality at every extended real: commutativity, 0 − y = −y, and the real power's definition
                            at the base z = p_atm / max (0.1 p, 1000), a positive real or zero.
    Proof/Reindex.lean      the eight points' [8192,128] blocks enumerate the 8388608 samples once each.
    Proof/Found.lean        what one run of the kernel body leaves in the output block: its previous content (zero at the
                            first point) plus the point's reduction.
    Proof/BlockSum.lean     that reduction at the ideal values: the sum over the block of the summand.
    Proof/Running.lean      the block after point n: 0 + the block sums of points 0 … n, by induction on the point.
    Proof/KernelValue.lean  the result array after the region (one write-back, at the last point) and @main's result
                            after the host operations that follow it.
    Proof/Blocks.lean       a block's entry is an argument's entry at its sample (the host re-laying before the region).
    Proof/KernelTotal.lean  the kernel's run: its result is the loss of 0 + ∑ over all samples of the summand.
    Proof/RefTerm.lean, Proof/RefValue.lean  the reference's run read the same way, one host operation at a time.
  The two totals are sums of equal summands over the same index set, in a commutative monoid: no finiteness of the
  inputs is used. The three frames are the generated frame runs; the idealization rewrote nothing, so `preserves` is
  trivial.
-/
import proofs.«164681_j45337674776928_1_alg».proof.Defs
import proofs.«164681_j45337674776928_1_alg».proof.Proof.Gen.Kernel
import proofs.«164681_j45337674776928_1_alg».proof.Proof.Gen.Kernel.Skeleton
import proofs.«164681_j45337674776928_1_alg».proof.Proof.Gen.Kernel.Launch
import proofs.«164681_j45337674776928_1_alg».proof.Proof.Gen.Kernel.Points
import proofs.«164681_j45337674776928_1_alg».proof.Proof.Gen.Kernel.Frame
import proofs.«164681_j45337674776928_1_alg».proof.Proof.Gen.KernelIdeal
import proofs.«164681_j45337674776928_1_alg».proof.Proof.Gen.KernelIdeal.Skeleton
import proofs.«164681_j45337674776928_1_alg».proof.Proof.Gen.KernelIdeal.Launch
import proofs.«164681_j45337674776928_1_alg».proof.Proof.Gen.KernelIdeal.Points
import proofs.«164681_j45337674776928_1_alg».proof.Proof.Gen.KernelIdeal.Frame
import proofs.«164681_j45337674776928_1_alg».proof.Proof.Gen.ReferenceIdeal
import proofs.«164681_j45337674776928_1_alg».proof.Proof.Gen.Pre_finite_inputs
import proofs.«164681_j45337674776928_1_alg».proof.Proof.Gen.ReferenceIdeal.Run
import proofs.«164681_j45337674776928_1_alg».proof.Proof.Gen.ReferenceIdeal.Read
import proofs.«164681_j45337674776928_1_alg».proof.Proof.KernelTotal
import proofs.«164681_j45337674776928_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end at the loss of the zero word plus the sum, over all samples, of the
    per-sample summand of arguments that agree: the kernel's summand in its spelling, the reference's in its own, equal
    at every extended real. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq]
  funext i
  rw [Cert.ReferenceIdeal.RefValue.result_apply, (hagree c).2.1, (hagree c).2.2.1, (hagree c).2.2.2.1,
    (hagree c).2.2.2.2]
  unfold Cert.KernelIdeal.Result.value Cert.KernelIdeal.Result.summand
  simp only [Cert.Loss.termExpLog_eq_termPow]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
